-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S19x10x256 : Shape := ⟨3, ![19, 10, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S19x10x256 : S_.BroadcastsInDim S19x10x256 (![] : Fin 0 → Fin S19x10x256.rank)
  reducesTo_S19x10x256_S_d0_1_2 : S19x10x256.ReducesTo [0, 1, 2] S_

variable [Facts]

def fn_part1 {F : FTy → Type} [FloatOps F] (main_arg1 : FVec F S131072x256 .f32) (main_arg3 : FVec F S19x10x256 .f32) (main_v13 : IVec S_ 1) (main_v16 : IVec S19x10x256 1) : IVec S_ 1 :=
  let main_c_5 : IVec S_ 1 := constantI S_ 1 1#1
  let main_v17 : IVec S_ 1 := (fun x v => Host.reduce IntOp.andi x v reducesTo_S19x10x256_S_d0_1_2 h_S_) main_v16 main_c_5
  let main_v18 : IVec S_ 1 := andi main_v13 main_v17
  let main_cst_6 : FVec F S_ .f32 := constant S_ .f32 0x00000000#32
  let main_v19 : FVec F S131072x256 .f32 := broadcastInDim S131072x256 ![] bcast_S_S131072x256 main_cst_6
  let main_v20 : IVec S131072x256 1 := cmpf .oge main_arg1 main_v19
  let main_c_7 : IVec S_ 1 := constantI S_ 1 1#1
  let main_v21 : IVec S_ 1 := (fun x v => Host.reduce IntOp.andi x v reducesTo_S131072x256_S_d0_1 h_S_) main_v20 main_c_7
  let main_v22 : IVec S_ 1 := andi main_v18 main_v21
  let main_cst_8 : FVec F S_ .f32 := constant S_ .f32 0x00000000#32
  let main_v23 : FVec F S19x10x256 .f32 := broadcastInDim S19x10x256 ![] bcast_S_S19x10x256 main_cst_8
  let main_v24 : IVec S19x10x256 1 := cmpf .oge main_arg3 main_v23
  let main_c_9 : IVec S_ 1 := constantI S_ 1 1#1
  let main_v25 : IVec S_ 1 := (fun x v => Host.reduce IntOp.andi x v reducesTo_S19x10x256_S_d0_1_2 h_S_) main_v24 main_c_9
  let main_v26 : IVec S_ 1 := andi main_v22 main_v25
  main_v26

def fn {F : FTy → Type} [FloatOps F] (main_arg0 : FVec F S131072x256 .f32) (main_arg1 : FVec F S131072x256 .f32) (main_arg2 : FVec F S19x10x256 .f32) (main_arg3 : FVec F S19x10x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S19x10x256 .f32 := Host.absf main_arg2
  let main_cst_2 : FVec F S_ .f32 := constant S_ .f32 0x7F800000#32
  let main_v10 : FVec F S19x10x256 .f32 := broadcastInDim S19x10x256 ![] bcast_S_S19x10x256 main_cst_2
  let main_v11 : IVec S19x10x256 1 := cmpf .olt main_v9 main_v10
  let main_c_3 : IVec S_ 1 := constantI S_ 1 1#1
  let main_v12 : IVec S_ 1 := (fun x v => Host.reduce IntOp.andi x v reducesTo_S19x10x256_S_d0_1_2 h_S_) main_v11 main_c_3
  let main_v13 : IVec S_ 1 := andi main_v8 main_v12
  let main_v14 : FVec F S19x10x256 .f32 := Host.absf main_arg3
  let main_cst_4 : FVec F S_ .f32 := constant S_ .f32 0x7F800000#32
  let main_v15 : FVec F S19x10x256 .f32 := broadcastInDim S19x10x256 ![] bcast_S_S19x10x256 main_cst_4
  let main_v16 : IVec S19x10x256 1 := cmpf .olt main_v14 main_v15
  fn_part1 (F := F) main_arg1 main_arg3 main_v13 main_v16
-- ==== Kernel.lean ====
abbrev S131072x256 : Shape := ⟨2, ![131072, 256]⟩
abbrev S19x10x256 : Shape := ⟨3, ![19, 10, 256]⟩
abbrev S190x256 : Shape := ⟨2, ![190, 256]⟩
abbrev S_ : Shape := ⟨0, ![]⟩
abbrev S190 : Shape := ⟨1, ![190]⟩
abbrev S1x190 : Shape := ⟨2, ![1, 190]⟩
abbrev S256x190 : Shape := ⟨2, ![256, 190]⟩
abbrev S131072x190 : Shape := ⟨2, ![131072, 190]⟩
abbrev S8192x256 : Shape := ⟨2, ![8192, 256]⟩
abbrev S8192x190 : Shape := ⟨2, ![8192, 190]⟩
abbrev S8192 : Shape := ⟨1, ![8192]⟩
abbrev S8192x1 : Shape := ⟨2, ![8192, 1]⟩
abbrev S131072x19x10 : Shape := ⟨3, ![131072, 19, 10]⟩

abbrev nBuf : Space → Nat
  | .hbm => 17
  | .vmem => 9
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S19x10x256, .f32⟩
  | .hbm, ⟨3, _⟩ => ⟨S19x10x256, .f32⟩
  | .hbm, ⟨4, _⟩ => ⟨S190x256, .f32⟩
  | .hbm, ⟨5, _⟩ => ⟨S190x256, .f32⟩
  | .hbm, ⟨6, _⟩ => ⟨S_, .f32⟩
  | .hbm, ⟨7, _⟩ => ⟨S190x256, .f32⟩
  | .hbm, ⟨8, _⟩ => ⟨S190x256, .f32⟩
  | .hbm, ⟨9, _⟩ => ⟨S190x256, .f32⟩
  | .hbm, ⟨10, _⟩ => ⟨S_, .f32⟩
  | .hbm, ⟨11, _⟩ => ⟨S190, .f32⟩
  | .hbm, ⟨12, _⟩ => ⟨S1x190, .f32⟩
  | .hbm, ⟨13, _⟩ => ⟨S256x190, .f32⟩
  | .hbm, ⟨14, _⟩ => ⟨S256x190, .f32⟩
  | .hbm, ⟨15, _⟩ => ⟨S131072x190, .f32⟩
  | .hbm, ⟨16, _⟩ => ⟨S131072x19x10, .f32⟩
  | .local _ .vmem, ⟨0, _⟩ => ⟨S8192x256, .f32⟩
  | .local _ .vmem, ⟨1, _⟩ => ⟨S8192x256, .f32⟩
  | .local _ .vmem, ⟨2, _⟩ => ⟨S8192x256, .f32⟩
  | .local _ .vmem, ⟨3, _⟩ => ⟨S8192x256, .f32⟩
  | .local _ .vmem, ⟨4, _⟩ => ⟨S256x190, .f32⟩
  | .local _ .vmem, ⟨5, _⟩ => ⟨S256x190, .f32⟩
  | .local _ .vmem, ⟨6, _⟩ => ⟨S1x190, .f32⟩
  | .local _ .vmem, ⟨7, _⟩ => ⟨S8192x190, .f32⟩
  | .local _ .vmem, ⟨8, _⟩ => ⟨S8192x190, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x190 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x190 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x190 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x190 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S19x10x256_S190x256 : S19x10x256.ShapeCasts S190x256
  bcast_S_S190x256 : S_.BroadcastsInDim S190x256 (![] : Fin 0 → Fin S190x256.rank)
  reducesTo_S190x256_S190_d1 : S190x256.ReducesTo [1] S190
  h_S_ : 0 < S_.numel
  shapeCasts_S190_S1x190 : S190.ShapeCasts S1x190
  transposes_S190x256_S256x190_1_0 : S190x256.Transposes [1, 0] S256x190
  inb_S8192x256_S8192x256_0_0 : ∀ a, (![0, 0] : Fin 2 → Nat) a + S8192x256.size a ≤ S8192x256.size a
  h_S8192x256 : 0 < S8192x256.numel
  inb_S256x190_S256x190_0_0 : ∀ a, (![0, 0] : Fin 2 → Nat) a + S256x190.size a ≤ S256x190.size a
  h_S256x190 : 0 < S256x190.numel
  shapeCasts_S256x190_S256x190 : S256x190.ShapeCasts S256x190
  inb_S1x190_S1x190_0_0 : ∀ a, (![0, 0] : Fin 2 → Nat) a + S1x190.size a ≤ S1x190.size a
  h_S1x190 : 0 < S1x190.numel
  shapeCasts_S1x190_S1x190 : S1x190.ShapeCasts S1x190
  reduces_S8192x256_S8192 : S8192x256.Reduces [1] S8192
  shapeCasts_S8192_S8192x1 : S8192.ShapeCasts S8192x1
  broadcasts_S8192x1_S8192x190 : S8192x1.Broadcasts S8192x190
  broadcasts_S1x190_S8192x190 : S1x190.Broadcasts S8192x190
  inb_S8192x190_S8192x190_0_0 : ∀ a, (![0, 0] : Fin 2 → Nat) a + S8192x190.size a ≤ S8192x190.size a
  h_S8192x190 : 0 < S8192x190.numel
  shapeCasts_S131072x190_S131072x19x10 : S131072x190.ShapeCasts S131072x19x10
  dot_S8192x256_S256x190_S8192x190_1_0_0_1_n_n_wf : DotDims.WF S8192x256 S256x190 S8192x190 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S131072x256.size a
  hwx0_1 : ∀ i : grid0.Coords, EltTy.bits .f32 = 32 ∨ (Rect.block (s := S131072x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x190.size a ≤ S256x190.size a
  hwx0_2 : ∀ i : grid0.Coords, EltTy.bits .f32 = 32 ∨ (Rect.block (s := S256x190) S256x190.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x190.size a ≤ S256x190.size a
  hwx0_3 : ∀ i : grid0.Coords, EltTy.bits .f32 = 32 ∨ (Rect.block (s := S256x190) S256x190.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x190.size a ≤ S1x190.size a
  hwx0_4 : ∀ i : grid0.Coords, EltTy.bits .f32 = 32 ∨ (Rect.block (s := S1x190) S1x190.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x190.size a ≤ S131072x190.size a
  hwx0_5 : ∀ i : grid0.Coords, EltTy.bits .f32 = 32 ∨ (Rect.block (s := S131072x190) S8192x190.size (cc0_transform_5 i) (hinb0_5 i)).WholeWords (EltTy.packing .f32)

variable [Facts₀]

def dot_S8192x256_S256x190_S8192x190_1_0_0_1_n_n : DotDims S8192x256 S256x190 S8192x190 where
  lhsContracting := [1]
  rhsContracting := [0]
  lhsNonContracting := [0]
  rhsNonContracting := [1]
  lhsBatch := []
  rhsBatch := []
  wf := dot_S8192x256_S256x190_S8192x190_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x190.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x190.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x190.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S8192x190.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x256 : Shape := ⟨2, ![131072, 256]⟩
abbrev S19x10x256 : Shape := ⟨3, ![19, 10, 256]⟩
abbrev S131072x19x10 : Shape := ⟨3, ![131072, 19, 10]⟩
abbrev S_ : Shape := ⟨0, ![]⟩
abbrev S131072 : Shape := ⟨1, ![131072]⟩
abbrev S131072x1x1 : Shape := ⟨3, ![131072, 1, 1]⟩
abbrev S19x10 : Shape := ⟨2, ![19, 10]⟩
abbrev S1x19x10 : Shape := ⟨3, ![1, 19, 10]⟩

abbrev nBuf : Space → Nat
  | .hbm => 32
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S19x10x256, .f32⟩
  | .hbm, ⟨3, _⟩ => ⟨S19x10x256, .f32⟩
  | .hbm, ⟨4, _⟩ => ⟨S131072x19x10, .f32⟩
  | .hbm, ⟨5, _⟩ => ⟨S131072x256, .f32⟩
  | .hbm, ⟨6, _⟩ => ⟨S19x10x256, .f32⟩
  | .hbm, ⟨7, _⟩ => ⟨S131072x19x10, .f32⟩
  | .hbm, ⟨8, _⟩ => ⟨S_, .f32⟩
  | .hbm, ⟨9, _⟩ => ⟨S131072, .f32⟩
  | .hbm, ⟨10, _⟩ => ⟨S131072x1x1, .f32⟩
  | .hbm, ⟨11, _⟩ => ⟨S_, .f32⟩
  | .hbm, ⟨12, _⟩ => ⟨S19x10, .f32⟩
  | .hbm, ⟨13, _⟩ => ⟨S1x19x10, .f32⟩
  | .hbm, ⟨14, _⟩ => ⟨S131072x19x10, .f32⟩
  | .hbm, ⟨15, _⟩ => ⟨S131072x19x10, .f32⟩
  | .hbm, ⟨16, _⟩ => ⟨S131072x19x10, .f32⟩
  | .hbm, ⟨17, _⟩ => ⟨S_, .f32⟩
  | .hbm, ⟨18, _⟩ => ⟨S131072x19x10, .f32⟩
  | .hbm, ⟨19, _⟩ => ⟨S131072x19x10, .f32⟩
  | .hbm, ⟨20, _⟩ => ⟨S131072x19x10, .f32⟩
  | .hbm, ⟨21, _⟩ => ⟨S_, .f32⟩
  | .hbm, ⟨22, _⟩ => ⟨S131072x19x10, .f32⟩
  | .hbm, ⟨23, _⟩ => ⟨S131072x19x10, .f32⟩
  | .hbm, ⟨24, _⟩ => ⟨S_, .f32⟩
  | .hbm, ⟨25, _⟩ => ⟨S131072x19x10, .f32⟩
  | .hbm, ⟨26, _⟩ => ⟨S131072x19x10, .f32⟩
  | .hbm, ⟨27, _⟩ => ⟨S_, .f32⟩
  | .hbm, ⟨28, _⟩ => ⟨S131072x19x10, .f32⟩
  | .hbm, ⟨29, _⟩ => ⟨S131072x19x10, .f32⟩
  | .hbm, ⟨30, _⟩ => ⟨S131072x19x10, .f32⟩
  | .hbm, ⟨31, _⟩ => ⟨S131072x19x10, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1x1_0 : S131072.BroadcastsInDim S131072x1x1 (![0] : Fin 1 → Fin S131072x1x1.rank)
  reducesTo_S19x10x256_S19x10_d2 : S19x10x256.ReducesTo [2] S19x10
  bcast_S19x10_S1x19x10_1_2 : S19x10.BroadcastsInDim S1x19x10 (![1, 2] : Fin 2 → Fin S1x19x10.rank)
  bcast_S131072x1x1_S131072x19x10_0_1_2 : S131072x1x1.BroadcastsInDim S131072x19x10 (![0, 1, 2] : Fin 3 → Fin S131072x19x10.rank)
  bcast_S1x19x10_S131072x19x10_0_1_2 : S1x19x10.BroadcastsInDim S131072x19x10 (![0, 1, 2] : Fin 3 → Fin S131072x19x10.rank)
  bcast_S_S131072x19x10 : S_.BroadcastsInDim S131072x19x10 (![] : Fin 0 → Fin S131072x19x10.rank)
  dot_S131072x256_S19x10x256_S131072x19x10_1_2_0_01_n_n_wf : DotDims.WF S131072x256 S19x10x256 S131072x19x10 [1] [2] [0] [0, 1] [] []

variable [Facts₀]

def dot_S131072x256_S19x10x256_S131072x19x10_1_2_0_01_n_n : DotDims S131072x256 S19x10x256 S131072x19x10 where
  lhsContracting := [1]
  rhsContracting := [2]
  lhsNonContracting := [0]
  rhsNonContracting := [0, 1]
  lhsBatch := []
  rhsBatch := []
  wf := dot_S131072x256_S19x10x256_S131072x19x10_1_2_0_01_n_n_wf

class Facts : Prop extends Facts₀ where

variable [Facts]
-- ==== Proof.NonNeg.lean ====
import proofs.«123118_j44478681317595_2_alg».proof.Pre_finite_inputs
import Idealize.ShloMosaic.PureOps.Ideal.Laws
import Idealize.ShloMosaic.Lib.ReduceAll
import Idealize.ShloMosaic.Lib.ValueIdx

/-!
  The precondition is a conjunction of six all-reductions of one-bit arrays; it states that the result is 1.
  Its last two conjuncts compare the two variance inputs with the constant zero, elementwise, by "≥".
  Read back: a conjunction of bits is 1 only when both are; an and-reduction over all axes that came out 1 met a 1 at
  every index; and over the extended reals the comparison "x ≥ 0" yields 1 exactly when 0 ≤ x, the zero word being 0.
-/

noncomputable section

namespace Cert.ProtoHead

open Idealize.ShloMosaic

/-- The shape of a scalar has one index. -/
private instance : Subsingleton Cert.Pre_finite_inputs.S_.Idx := ⟨fun a b => funext fun d => d.elim0⟩

/-- A boolean's one-bit word is 1 exactly when the boolean is true. -/
private theorem ofBool_eq_one {b : Bool} : BitVec.ofBool b = 1#1 ↔ b = true := by cases b <;> decide

/-- An element of the comparison "x ≥ 0" being 1 says 0 ≤ x: the zero word is the extended real 0, and the ordered
    "≥" of extended reals decides 0 ≤ x. -/
private theorem oge_zero_eq_one {x : EReal}
    (h : FloatOps.cmpf (F := Ideal) (φ := .f32) .oge x (FloatOps.ofBits (F := Ideal) .f32 0x00000000#32) = 1#1) :
    (0 : EReal) ≤ x := by
  have hz : FloatOps.ofBits (F := Ideal) .f32 0x00000000#32 = (0 : EReal) := Ideal.ofBits_zero_f32
  rw [Ideal.cmpf_def, hz] at h
  simpa [Ideal.cmp, ofBool_eq_one] using h

/-- Under the precondition the two variance inputs are non-negative at every index. -/
theorem nonneg_of_pre [Cert.Pre_finite_inputs.Facts]
    (x0 x1 : FVec Ideal Cert.Pre_finite_inputs.S131072x256 .f32) (x2 x3 : FVec Ideal Cert.Pre_finite_inputs.S19x10x256 .f32)
    (h : Cert.Pre_finite_inputs.fn (F := Ideal) x0 x1 x2 x3 = fun _ => 1#1) :
    (∀ i, (0 : EReal) ≤ x1 i) ∧ (∀ i, (0 : EReal) ≤ x3 i) := by
  -- the result at its one index, with the chain of operations unfolded: a conjunction of six reductions
  have e := congrFun h ValueIdx.ix0
  dsimp only [Cert.Pre_finite_inputs.fn, Cert.Pre_finite_inputs.fn_part1, andi] at e
  -- the last conjunct is the reduction over the second variance input, the one before it over the first
  obtain ⟨e', h3⟩ := IntOp.andi_eq_one.1 e
  obtain ⟨-, h1⟩ := IntOp.andi_eq_one.1 e'
  exact ⟨fun i => oge_zero_eq_one (Host.reduce_andi_all _ _ _ _ ValueIdx.ix0 h1 i),
    fun i => oge_zero_eq_one (Host.reduce_andi_all _ _ _ _ ValueIdx.ix0 h3 i)⟩

end Cert.ProtoHead

end
-- ==== Proof.Spec.lean ====
/-
  The prototype head, entry by entry, on the extended reals.

  For an embedding row `x` with per-coordinate variances `xv` and a prototype `pm` with variances `pv` (all of length 256)
  the head's similarity is minus the squared 2-Wasserstein-like distance
      2 - 2·⟨x, pm⟩ + (1/256)·(Σ xv + Σ pv - 2·⟨√xv, √pv⟩).
  The reference computes exactly this; the kernel clamps each variance at zero before its square root, receives the
  prototype variances' sum already formed on the host as `0 + Σ pv`, and negates by subtracting from zero. Where the
  variances are non-negative the clamp is the identity, and `0 + s = s`, `0 - s = -s` hold on every extended real, so the two
  entries agree (`ksim_eq_sim`). No finiteness is used.
-/
import Idealize.ShloMosaic.PureOps.Ideal
import Idealize.ShloMosaic.PureOps.Ideal.Laws
import Idealize.ShloMosaic.Lib.ValueIdx

noncomputable section

namespace Cert.ProtoHead

open Idealize.ShloMosaic Idealize.ShloMosaic.ValueIdx

/-- The two literals both programs carry, as the values of their f32 words: 2 and 1/256. The same word stands on both
    sides, so its value is never needed. -/
def two : EReal := Ideal.ofBits .f32 0x40000000#32
def lam : EReal := Ideal.ofBits .f32 0x3B800000#32

/-- One entry of the result as the reference writes it. -/
def sim (x xv pm pv : Fin 256 → EReal) : EReal :=
  -((two - two * ∑ k, x k * pm k) + lam * ((∑ k, xv k + ∑ k, pv k) - two * ∑ k, Ideal.sqrt (xv k) * Ideal.sqrt (pv k)))

/-- One entry as the kernel body writes it, from a prototype column `pmc`, the column `spvc` of square roots the host
    prepared, and the prototype's variance sum `pvs` the host prepared. -/
def ksim (x xv pmc spvc : Fin 256 → EReal) (pvs : EReal) : EReal :=
  0 - ((two - two * ∑ k, x k * pmc k) + lam * ((∑ k, xv k + pvs) - two * ∑ k, Ideal.sqrt (max (xv k) 0) * spvc k))

/-- With non-negative variances the kernel's entry, fed what the host prepares (the clamped square roots and `0 + Σ pv`),
    is the reference's entry. -/
theorem ksim_eq_sim (x xv pm pv : Fin 256 → EReal) (hxv : ∀ k, 0 ≤ xv k) (hpv : ∀ k, 0 ≤ pv k) :
    ksim x xv pm (fun k => Ideal.sqrt (max (pv k) 0)) (0 + ∑ k, pv k) = sim x xv pm pv := by
  unfold ksim sim
  rw [zero_sub, zero_add]
  simp only [max_eq_left (hxv _), max_eq_left (hpv _)]

/-! ## The arrays -/

abbrev SX : Shape := ⟨2, ![131072, 256]⟩
abbrev SP : Shape := ⟨3, ![19, 10, 256]⟩
abbrev SO : Shape := ⟨3, ![131072, 19, 10]⟩
abbrev ST : Shape := ⟨2, ![256, 190]⟩
abbrev SV : Shape := ⟨2, ![1, 190]⟩

/-- The whole result: entry `(n, c, m)` pairs row `n` of the embeddings with prototype `(c, m)`. -/
def G (x xv : SX.Idx → EReal) (pm pv : SP.Idx → EReal) : SO.Idx → EReal := fun i =>
  sim (fun k => x (ix2 (i 0) k)) (fun k => xv (ix2 (i 0) k)) (fun k => pm (ix3 (i 1) (i 2) k)) (fun k => pv (ix3 (i 1) (i 2) k))

/-- What the kernel body computes on `R` rows at once: entry `(p, q)` pairs row `p` with column `q` of the prepared
    prototype arrays. A block of 8192 rows and the whole array of 131072 rows are both instances. -/
def rows (R : ℕ) (x xv : (⟨2, ![R, 256]⟩ : Shape).Idx → EReal) (pmT spvT : ST.Idx → EReal) (pvs : SV.Idx → EReal) :
    (⟨2, ![R, 190]⟩ : Shape).Idx → EReal := fun i =>
  ksim (fun k => x (ix2 (i 0) k)) (fun k => xv (ix2 (i 0) k)) (fun k => pmT (ix2 k (i 1))) (fun k => spvT (ix2 k (i 1)))
    (pvs (ix2 (0 : Fin 1) (i 1)))

end Cert.ProtoHead

end
-- ==== Proof.RefSide.lean ====
/-
  The reference, entry by entry, is the head's similarity `G`.

  Each stage of the reference is read at an index: the two contractions are sums over the 256 coordinates of a row against a
  prototype, the two variance sums start from the zero word (`0 + s = s`), the broadcasts carry an index to the row or
  to the prototype it belongs to, and the remaining arithmetic is entrywise. What is left are the index functions of the
  stages, each of which is the row `(n, ·)` or the prototype `(c, m, ·)` of the entry `(n, c, m)`.
-/
import proofs.«123118_j44478681317595_2_alg».proof.Proof.Gen.ReferenceIdeal.Read
import proofs.«123118_j44478681317595_2_alg».proof.Proof.Spec

noncomputable section

namespace Cert.ReferenceIdeal.Hand

open Cert.ReferenceIdeal Cert.ReferenceIdeal.Read Idealize.ShloMosaic Idealize.ShloMosaic.ValueIdx Cert.ProtoHead

variable (i : S131072x19x10.Idx) (k : Fin 256)

/-! ## The stages' index functions: a row of the embeddings, a prototype -/

theorem row_v0 : lidx_main_v0 i k = (ix2 (i 0) k : S131072x256.Idx) :=
  funext fun a => Fin.ext (by match a with | ⟨0, _⟩ => rfl | ⟨1, _⟩ => rfl)
theorem proto_v0 : ridx_main_v0 i k = (ix3 (i 1) (i 2) k : S19x10x256.Idx) :=
  funext fun a => Fin.ext (by match a with | ⟨0, _⟩ => rfl | ⟨1, _⟩ => rfl | ⟨2, _⟩ => rfl)
theorem row_v3 : lidx_main_v3 i k = (ix2 (i 0) k : S131072x256.Idx) :=
  funext fun a => Fin.ext (by match a with | ⟨0, _⟩ => rfl | ⟨1, _⟩ => rfl)
theorem proto_v3 : ridx_main_v3 i k = (ix3 (i 1) (i 2) k : S19x10x256.Idx) :=
  funext fun a => Fin.ext (by match a with | ⟨0, _⟩ => rfl | ⟨1, _⟩ => rfl | ⟨2, _⟩ => rfl)
theorem row_v4 : idx_main_v4 (idx_main_v5 (idx_main_v8 i)) k = (ix2 (i 0) k : S131072x256.Idx) :=
  funext fun a => Fin.ext (by match a with | ⟨0, _⟩ => rfl | ⟨1, _⟩ => rfl)
theorem proto_v6 : idx_main_v6 (idx_main_v7 (idx_main_v9 i)) k = (ix3 (i 1) (i 2) k : S19x10x256.Idx) :=
  funext fun a => Fin.ext (by match a with | ⟨0, _⟩ => rfl | ⟨1, _⟩ => rfl | ⟨2, _⟩ => rfl)

/-- THE REFERENCE'S RESULT is `G` of its four arguments. -/
theorem ref_eq (x0 x1 : (⟨S131072x256, .f32⟩ : BufTy).Contents (Elt Ideal)) (x2 x3 : (⟨S19x10x256, .f32⟩ : BufTy).Contents (Elt Ideal)) :
    val_main_v21 (F := Ideal) x0 x1 x2 x3 = G x0 x1 x2 x3 := by
  funext i
  simp only [val_main_v21_apply, val_main_v20_apply, val_main_v17_apply, val_main_v16_apply, val_main_cst_3_apply,
    val_main_v15_apply, val_main_v14_apply, val_main_cst_2_apply, val_main_v0_apply, val_main_v19_apply, val_main_v18_apply,
    val_main_cst_4_apply, val_main_v13_apply, val_main_v10_apply, val_main_v8_apply, val_main_v5_apply, val_main_v4_apply,
    val_main_cst_apply, val_main_v9_apply, val_main_v7_apply, val_main_v6_apply, val_main_cst_0_apply, val_main_v12_apply,
    val_main_v11_apply, val_main_cst_1_apply, val_main_v3_apply, val_main_v1_apply, val_main_v2_apply,
    row_v0, proto_v0, row_v3, proto_v3, row_v4, proto_v6]
  simp only [Ideal.hostNegf_def, Ideal.negf_def, Ideal.addf_def, Ideal.subf_def, Ideal.mulf_def, Ideal.ofBits_def,
    Ideal.hostUnary_sqrt_def, Ideal.ofBits_zero_f32, zero_add]
  rfl

end Cert.ReferenceIdeal.Hand

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.Payload.lean ====
/-
  The kernel body's stored value, read at one entry.

  On a block of 8192 rows the body forms two matrix products into zero accumulators (the rows against the prepared
  prototype columns, and the clamped square roots of the variances against the prepared square-root columns), the row sums
  of the variances kept as a column, and combines them entrywise. Each non-pointwise piece is read at an index here: a
  product entry is a sum over the 256 contracted coordinates, a row sum is a sum over the row, the kept column and the
  prepared row spread over the block read their one entry. Together: entry `(p, q)` of the stored value is the kernel's
  entry formula `ksim` of row `p` and column `q`.
-/
import proofs.«123118_j44478681317595_2_alg».proof.Proof.Gen.KernelIdeal.Skeleton
import proofs.«123118_j44478681317595_2_alg».proof.Proof.Spec
import proofs.«123118_j44478681317595_2_alg».proof.Proof.LibKeptColumn
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.ProtoHead

/-! ## The product's operand indices, coordinate by coordinate -/

theorem lhs0 (i : S8192x190.Idx) (q : dot_S8192x256_S256x190_S8192x190_1_0_0_1_n_n.contr.Idx) : (dot_S8192x256_S256x190_S8192x190_1_0_0_1_n_n.lhsIdx i q 0).val = (i 0).val := by
  unfold DotDims.lhsIdx
  rw [dif_neg (show ¬(0 : Fin S8192x256.rank) ∈ dot_S8192x256_S256x190_S8192x190_1_0_0_1_n_n.lhsBatch by decide), dif_pos (show (0 : Fin S8192x256.rank) ∈ dot_S8192x256_S256x190_S8192x190_1_0_0_1_n_n.lhsNonContracting by decide)]
  rfl
theorem lhs1 (i : S8192x190.Idx) (q : dot_S8192x256_S256x190_S8192x190_1_0_0_1_n_n.contr.Idx) : (dot_S8192x256_S256x190_S8192x190_1_0_0_1_n_n.lhsIdx i q 1).val = (q ⟨0, by decide⟩).val :=
  dot_S8192x256_S256x190_S8192x190_1_0_0_1_n_n.lhsIdx_val_of_single rfl i q
theorem rhs0 (i : S8192x190.Idx) (q : dot_S8192x256_S256x190_S8192x190_1_0_0_1_n_n.contr.Idx) : (dot_S8192x256_S256x190_S8192x190_1_0_0_1_n_n.rhsIdx i q 0).val = (q ⟨0, by decide⟩).val :=
  dot_S8192x256_S256x190_S8192x190_1_0_0_1_n_n.rhsIdx_val_of_single rfl i q
theorem rhs1 (i : S8192x190.Idx) (q : dot_S8192x256_S256x190_S8192x190_1_0_0_1_n_n.contr.Idx) : (dot_S8192x256_S256x190_S8192x190_1_0_0_1_n_n.rhsIdx i q 1).val = (i 1).val := by
  unfold DotDims.rhsIdx
  rw [dif_neg (show ¬(1 : Fin S256x190.rank) ∈ dot_S8192x256_S256x190_S8192x190_1_0_0_1_n_n.rhsBatch by decide), dif_pos (show (1 : Fin S256x190.rank) ∈ dot_S8192x256_S256x190_S8192x190_1_0_0_1_n_n.rhsNonContracting by decide)]
  rfl

/-- A block's matrix product into the zero accumulator, at entry `(p, q)`: the sum over the contracted coordinate of row
    `p` of the left operand against column `q` of the right one. -/
theorem matmul_at (l : FVec Ideal S8192x256 .f32) (r : FVec Ideal S256x190 .f32) (p : Fin 8192) (q : Fin 190) :
    matmul dot_S8192x256_S256x190_S8192x190_1_0_0_1_n_n (some .fp32) l r (constant S8192x190 .f32 0x00000000#32) (ix2 p q)
      = ∑ k : Fin 256, l (ix2 p k) * r (ix2 k q) := by
  refine (Ideal.matmul_constant_zero_apply dot_S8192x256_S256x190_S8192x190_1_0_0_1_n_n (some .fp32) l r (ix2 p q)).trans ?_
  rw [← Equiv.sum_comp (contrEquiv1 dot_S8192x256_S256x190_S8192x190_1_0_0_1_n_n 256 rfl rfl).symm]
  refine Finset.sum_congr rfl fun k _ => ?_
  have hk := contrEquiv1_symm_val dot_S8192x256_S256x190_S8192x190_1_0_0_1_n_n 256 rfl rfl k
  have el : dot_S8192x256_S256x190_S8192x190_1_0_0_1_n_n.lhsIdx (ix2 p q) ((contrEquiv1 dot_S8192x256_S256x190_S8192x190_1_0_0_1_n_n 256 rfl rfl).symm k) = ix2 p k := funext fun a => Fin.ext (by
    match a with
    | ⟨0, _⟩ => exact lhs0 _ _
    | ⟨1, _⟩ => exact (lhs1 _ _).trans hk)
  have er : dot_S8192x256_S256x190_S8192x190_1_0_0_1_n_n.rhsIdx (ix2 p q) ((contrEquiv1 dot_S8192x256_S256x190_S8192x190_1_0_0_1_n_n 256 rfl rfl).symm k) = ix2 k q := funext fun a => Fin.ext (by
    match a with
    | ⟨0, _⟩ => exact (rhs0 _ _).trans hk
    | ⟨1, _⟩ => exact rhs1 _ _)
  rw [el, er]

/-- A row sum of the block: the lane reduction over axis 1, at row `p`, is the sum over the row. -/
theorem rowsum_at (x1 : FVec Ideal S8192x256 .f32) (p : Fin 8192) :
    multiReduction .add [1] S8192 x1 0x00000000#32 reduces_S8192x256_S8192 (.inl rfl) rfl (ix1 p)
      = ∑ k : Fin 256, x1 (ix2 p k) := by
  refine (Ideal.multiReduction_add_single x1 0x00000000#32 reduces_S8192x256_S8192 (.inl rfl) rfl (ix1 p)).trans ?_
  refine Finset.sum_congr rfl fun k _ => ?_
  exact congrArg x1 (funext fun a => Fin.ext (by match a with | ⟨0, _⟩ => rfl | ⟨1, _⟩ => rfl))

/-- The row sums kept as a column and spread along the rows read, at `(p, q)`, row `p`'s sum. -/
theorem keptsum_at (x1 : FVec Ideal S8192x256 .f32) (p : Fin 8192) (q : Fin 190) :
    broadcastTo S8192x190 (shapeCast S8192x1 (multiReduction .add [1] S8192 x1 0x00000000#32 reduces_S8192x256_S8192 (.inl rfl) rfl)
        shapeCasts_S8192_S8192x1) broadcasts_S8192x1_S8192x190 (ix2 p q)
      = ∑ k : Fin 256, x1 (ix2 p k) :=
  ((KeptColumn.broadcastTo_a1_ab_apply _ broadcasts_S8192x1_S8192x190 p q).trans
    (KeptColumn.shapeCast_a_a1_apply _ shapeCasts_S8192_S8192x1 p 0)).trans (rowsum_at x1 p)

/-- The prepared row of prototype variance sums spread over the block reads, at `(p, q)`, its entry `q`. -/
theorem pvrow_at (x4 : FVec Ideal S1x190 .f32) (p : Fin 8192) (q : Fin 190) :
    broadcastTo S8192x190 x4 broadcasts_S1x190_S8192x190 (ix2 p q) = x4 (ix2 (0 : Fin 1) q) :=
  broadcastTo_1b_ab_apply x4 broadcasts_S1x190_S8192x190 p q

/-- ENTRY `(p, q)` OF THE STORED VALUE is the kernel's entry formula of row `p` of the two row blocks and column `q` of the
    prepared prototype arrays. -/
theorem pay_at (x0 x1 : Vec Ideal S8192x256 .f32) (x2 x3 : Vec Ideal S256x190 .f32) (x4 : Vec Ideal S1x190 .f32)
    (p : Fin 8192) (q : Fin 190) :
    k0_pay1 (F := Ideal) x0 x1 x2 x3 x4 (ix2 p q)
      = ksim (fun k => x0 (ix2 p k)) (fun k => x1 (ix2 p k)) (fun k => x2 (ix2 k q)) (fun k => x3 (ix2 k q)) (x4 (ix2 (0 : Fin 1) q)) := by
  have e1 := matmul_at x0 x2 p q
  have e2 := matmul_at (sqrt (maximumf x1 (broadcast S8192x256 (Scalar.ofBits .f32 0x00000000#32)))) x3 p q
  have e3 := keptsum_at x1 p q
  have e4 := pvrow_at x4 p q
  unfold k0_pay1
  simp only [shapeCast_self, subf_apply, addf_apply, mulf_apply, broadcast_apply]
  rw [e1, e2, e3, e4]
  unfold ksim
  show Ideal.ofBits .f32 0x00000000#32 - ((two - two * _) + lam * ((_ + _) - two * ∑ k : Fin 256, Ideal.sqrt (max (x1 (ix2 p k)) (Ideal.ofBits .f32 0x00000000#32)) * x3 (ix2 k q))) = _
  rw [Ideal.ofBits_zero_f32]

end Cert.KernelIdeal.Hand

end
-- ==== Proof.Blocks.lean ====
/-
  From the blocks to the array: what the region leaves in its output array.

  The grid has 16 points; point `t` reads rows `8192·t … 8192·t + 8191` of the embeddings and of their variances, the
  whole of the three prepared prototype arrays, and writes back rows `8192·t …` of the output. The body's stored value
  at entry `(p, q)` of a block is the kernel's entry formula of row `p` of the row blocks and column `q` of the prepared
  arrays; row `p` of block `t` is row `8192·t + p` of the array, so what point `t` writes back is block `t` of ONE function
  of the arrays as the region finds them — the entry formula on all 131072 rows. The 16 blocks tile the output (row `r` is
  in block `r / 8192`), so the output array ends holding that function.
-/
import proofs.«123118_j44478681317595_2_alg».proof.Proof.Gen.KernelIdeal.Frame
import proofs.«123118_j44478681317595_2_alg».proof.Proof.Payload
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx Cert.ProtoHead
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The entry formula on all rows, of the arrays as the region finds them: the embeddings, their variances, and the three
    arrays the host prepared from the prototypes. -/
def flat (c : Dev nD) : S131072x190.Idx → EReal :=
  rows 131072 (V m c main_arg0) (V m c main_arg1) (V m c main_v7) (V m c main_v8) (V m c main_v6)

/-- The printed index maps over the grid: the two row windows and the output move with the point along axis 0, the three
    prepared arrays stay at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t`, as a row of the array. -/
def rowOf (t : Fin cfg0.N) (p : Fin 8192) : Fin 131072 :=
  ⟨t.val * 8192 + p.val, by have h : cfg0.N = 16 := N_0; have := t.isLt; have := p.isLt; omega⟩

/-! ## The input blocks read where the output's block says -/

theorem blk0 (c : Dev nD) (t : Fin cfg0.N) (p : Fin 8192) (k : Fin 256) :
    iblk m c 0 t (ix2 p k) = V m c main_arg0 (ix2 (rowOf t p) k) := by
  obtain ⟨e00, e01, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 8192 + 1 * p.val = t.val * 8192 + p.val; rw [e00]; omega
  | ⟨1, _⟩ => show win0_0.index t (1 : Fin 2) * 256 + 1 * k.val = k.val; rw [e01]; omega

theorem blk1 (c : Dev nD) (t : Fin cfg0.N) (p : Fin 8192) (k : Fin 256) :
    iblk m c 1 t (ix2 p k) = V m c main_arg1 (ix2 (rowOf t p) k) := by
  obtain ⟨-, -, e10, e11, -⟩ := idx_facts t
  show V m c main_arg1 (((cfg0.win 1).blk t).view.emb (ix2 p k)) = _
  refine congrArg (V m c main_arg1) (funext fun a => Fin.ext ?_)
  match a with
  | ⟨0, _⟩ => show win0_1.index t (0 : Fin 2) * 8192 + 1 * p.val = t.val * 8192 + p.val; rw [e10]; omega
  | ⟨1, _⟩ => show win0_1.index t (1 : Fin 2) * 256 + 1 * k.val = k.val; rw [e11]; omega

theorem blk2 (c : Dev nD) (t : Fin cfg0.N) (k : Fin 256) (q : Fin 190) :
    iblk m c 2 t (ix2 k q) = V m c main_v7 (ix2 k q) := by
  obtain ⟨-, -, -, -, e20, e21, -⟩ := idx_facts t
  show V m c main_v7 (((cfg0.win 2).blk t).view.emb (ix2 k q)) = _
  refine congrArg (V m c main_v7) (funext fun a => Fin.ext ?_)
  match a with
  | ⟨0, _⟩ => show win0_2.index t (0 : Fin 2) * 256 + 1 * k.val = k.val; rw [e20]; omega
  | ⟨1, _⟩ => show win0_2.index t (1 : Fin 2) * 190 + 1 * q.val = q.val; rw [e21]; omega

theorem blk3 (c : Dev nD) (t : Fin cfg0.N) (k : Fin 256) (q : Fin 190) :
    iblk m c 3 t (ix2 k q) = V m c main_v8 (ix2 k q) := by
  obtain ⟨-, -, -, -, -, -, e30, e31, -⟩ := idx_facts t
  show V m c main_v8 (((cfg0.win 3).blk t).view.emb (ix2 k q)) = _
  refine congrArg (V m c main_v8) (funext fun a => Fin.ext ?_)
  match a with
  | ⟨0, _⟩ => show win0_3.index t (0 : Fin 2) * 256 + 1 * k.val = k.val; rw [e30]; omega
  | ⟨1, _⟩ => show win0_3.index t (1 : Fin 2) * 190 + 1 * q.val = q.val; rw [e31]; omega

theorem blk4 (c : Dev nD) (t : Fin cfg0.N) (u : Fin 1) (q : Fin 190) :
    iblk m c 4 t (ix2 u q) = V m c main_v6 (ix2 u q) := by
  obtain ⟨-, -, -, -, -, -, -, -, e40, e41, -⟩ := idx_facts t
  show V m c main_v6 (((cfg0.win 4).blk t).view.emb (ix2 u q)) = _
  refine congrArg (V m c main_v6) (funext fun a => Fin.ext ?_)
  match a with
  | ⟨0, _⟩ => show win0_4.index t (0 : Fin 2) * 1 + 1 * u.val = u.val; rw [e40]; omega
  | ⟨1, _⟩ => show win0_4.index t (1 : Fin 2) * 190 + 1 * q.val = q.val; rw [e41]; omega

/-- Entry `(p, q)` of the output's block at point `t` sits at row `8192·t + p`, column `q` of the array. -/
theorem emb5 (t : Fin cfg0.N) (p : Fin 8192) (q : Fin 190) :
    ((cfg0.win 5).blk t).view.emb (ix2 p q) = (ix2 (rowOf t p) q : S131072x190.Idx) := by
  obtain ⟨-, -, -, -, -, -, -, -, -, -, e50, e51⟩ := idx_facts t
  refine funext fun a => Fin.ext ?_
  match a with
  | ⟨0, _⟩ => show win0_5.index t (0 : Fin 2) * 8192 + 1 * p.val = t.val * 8192 + p.val; rw [e50]; omega
  | ⟨1, _⟩ => show win0_5.index t (1 : Fin 2) * 190 + 1 * q.val = q.val; rw [e51]; omega

/-- The entry formula respects entrywise equal arguments. -/
theorem ksim_congr {a a' b b' d d' e e' : Fin 256 → EReal} {s s' : EReal} (ha : ∀ k, a k = a' k) (hb : ∀ k, b k = b' k)
    (hd : ∀ k, d k = d' k) (he : ∀ k, e k = e' k) (hs : s = s') : ksim a b d e s = ksim a' b' d' e' s' := by
  rw [funext ha, funext hb, funext hd, funext he, hs]

/-- WHAT POINT `t` WRITES BACK is block `t` of `flat`. -/
theorem flushed_eq (c : Dev nD) (t : Fin cfg0.N) :
    (dats m 0 c).flushed 5 t = ((cfg0.win 5).blk t).view.read (Elt Ideal) (flat m c) := by
  show (cfg0.win 5).cut (grid0.coords t) ((dats m 0 c).after 5 t) = _
  rw [after0_5]
  unfold out0_5
  rw [View.canon_unit_zero hz]
  simp only [View.ld_unit_zero (S := S8192x256) hz, View.ld_unit_zero (S := S256x190) hz, View.ld_unit_zero (S := S1x190) hz]
  funext j
  obtain ⟨p, q, rfl⟩ : ∃ (p : Fin 8192) (q : Fin 190), j = ix2 p q := ⟨j 0, j 1, eq_ix2 j⟩
  show k0_pay1 (F := Ideal) (iblk m c 0 t) (iblk m c 1 t) (iblk m c 2 t) (iblk m c 3 t) (iblk m c 4 t) (ix2 p q)
    = flat m c (((cfg0.win 5).blk t).view.emb (ix2 p q))
  rw [emb5 t p q]
  refine (pay_at (iblk m c 0 t) (iblk m c 1 t) (iblk m c 2 t) (iblk m c 3 t) (iblk m c 4 t) p q).trans ?_
  exact ksim_congr (fun k => blk0 m c t p k) (fun k => blk1 m c t p k) (fun k => blk2 m c t k q) (fun k => blk3 m c t k q)
    (blk4 m c t 0 q)

/-- An index of the output array is in point `t`'s block iff each coordinate is in the block's range on its axis. -/
theorem mem_blk5 (t : Fin cfg0.N) (i : S131072x190.Idx) :
    i ∈ ((cfg0.win 5).blk t).view.set ↔ ∀ a : Fin 2, win0_5.index t a * S8192x190.size a ≤ (i a).val ∧ (i a).val < win0_5.index t a * S8192x190.size a + S8192x190.size a := by
  show i ∈ ((View.whole main_v9).slice (win0_5.rect t)).set ↔ _
  rw [View.set_slice_whole, Rect.mem_set_unit]
  exact Iff.rfl

/-- The blocks tile the output: row `r` is in the block of point `r / 8192`. -/
theorem cover5 (i : S131072x190.Idx) :
    ∃ t : Fin cfg0.N, (cfg0.win 5).flush t = true ∧ i ∈ ((cfg0.win 5).blk t).view.set := by
  have hi0 : (i 0).val < 131072 := (i 0).isLt
  have hi1 : (i 1).val < 190 := (i 1).isLt
  have hN : cfg0.N = 16 := N_0
  obtain ⟨t, ht⟩ : ∃ t : Fin cfg0.N, t.val = (i 0).val / 8192 := ⟨⟨(i 0).val / 8192, by omega⟩, rfl⟩
  obtain ⟨-, -, -, -, -, -, -, -, -, -, e50, e51⟩ := idx_facts t
  refine ⟨t, flush0_5 t, ?_⟩
  rw [mem_blk5]
  intro a
  match a with
  | ⟨0, _⟩ =>
    show win0_5.index t (0 : Fin 2) * 8192 ≤ (i 0).val ∧ (i 0).val < win0_5.index t (0 : Fin 2) * 8192 + 8192
    rw [e50, ht]; omega
  | ⟨1, _⟩ =>
    show win0_5.index t (1 : Fin 2) * 190 ≤ (i 1).val ∧ (i 1).val < win0_5.index t (1 : Fin 2) * 190 + 190
    rw [e51]; omega

/-- THE OUTPUT ARRAY after the region is `flat`. -/
theorem final5 (c : Dev nD) : (dats m 0 c).arrAt 5 cfg0.N = flat m c :=
  (dats m 0 c).arrAt_eq_of_cover 5 (flat m c) (fun t _ => flushed_eq m c t) (cover5)

end Cert.KernelIdeal.Hand

end
-- ==== Proof.HostSide.lean ====
/-
  The host's operations around the region, read at an index, on the extended reals.

  Before the region the host flattens the two prototype arrays [19, 10, 256] to [190, 256] (prototype (c, m) becomes
  row q = c·10 + m), clamps the variances at zero and takes their square roots, sums each prototype's variances from
  the zero word, and transposes to [256, 190]. After the region it splits the column index q of the [131072, 190]
  result back into (c, m). A reshape keeps the row-major position, so each of these is an identity between row-major
  positions: (c·10 + m)·256 + k = q·256 + k and n·190 + q = (n·19 + c)·10 + m.
-/
import proofs.«123118_j44478681317595_2_alg».proof.Proof.Gen.KernelIdeal.Frame
import Idealize.ShloMosaic.Lib.StableHlo.Run
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.HostSide

open Cert.KernelIdeal Cert.KernelIdeal.Gen Idealize.ShloMosaic Idealize.ShloMosaic.TcCoe Idealize.SL.Sem Idealize.ShloMosaic.ValueIdx Idealize.ShloMosaic.StableHlo

/-! ## The operations on arbitrary arrays -/

/-- The flattened prototype array at row `q = c·10 + m`, coordinate `k`, is the prototype array at `(c, m, k)`: both
    have row-major position `(c·10 + m)·256 + k`. -/
theorem flat_apply (a : S19x10x256.Idx → EReal) (h : S19x10x256.ShapeCasts S190x256)
    (cq : Fin 19) (mq : Fin 10) (q : Fin 190) (hq : q.val = cq.val * 10 + mq.val) (k : Fin 256) :
    shapeCast S190x256 a h (ix2 q k) = a (ix3 cq mq k) :=
  shapeCast_apply a h _ _ (by
    rw [Shape.rowMajor_val_three, Shape.rowMajor_val_two]
    show (cq.val * 10 + mq.val) * 256 + k.val = q.val * 256 + k.val
    rw [hq])

/-- The transposed flattened array at `(k, q)`. -/
theorem pmT_pure (a : S19x10x256.Idx → EReal) (h : S19x10x256.ShapeCasts S190x256) (ht : S190x256.Transposes [1, 0] S256x190)
    (cq : Fin 19) (mq : Fin 10) (q : Fin 190) (hq : q.val = cq.val * 10 + mq.val) (k : Fin 256) :
    transpose S256x190 [1, 0] (shapeCast S190x256 a h) ht (ix2 k q) = a (ix3 cq mq k) :=
  (transpose_ix2_apply _ ht k q).trans (flat_apply a h cq mq q hq k)

/-- The transposed square roots of the clamped flattened array at `(k, q)`: the clamp is against the zero word, which
    is 0. -/
theorem spvT_pure (a : S19x10x256.Idx → EReal) (h : S19x10x256.ShapeCasts S190x256) (ht : S190x256.Transposes [1, 0] S256x190)
    (hb : S_.BroadcastsInDim S190x256 (![] : Fin 0 → Fin S190x256.rank))
    (cq : Fin 19) (mq : Fin 10) (q : Fin 190) (hq : q.val = cq.val * 10 + mq.val) (k : Fin 256) :
    transpose S256x190 [1, 0] (Host.sqrt (F := Ideal) (φ := .f32) (maximumf (F := Ideal) (φ := .f32) (shapeCast S190x256 a h)
        (broadcastInDim S190x256 ![] hb (constant (F := Ideal) S_ .f32 0x00000000#32)))) ht (ix2 k q)
      = Ideal.sqrt (max (a (ix3 cq mq k)) 0) := by
  refine (transpose_ix2_apply _ ht k q).trans ?_
  show Ideal.sqrt (max (shapeCast S190x256 a h (ix2 q k)) (Ideal.ofBits .f32 0x00000000#32)) = _
  rw [flat_apply a h cq mq q hq k, Ideal.ofBits_zero_f32]

/-- The sums of the flattened array's rows, from the zero word, recast to one row of 190, at column `q`. -/
theorem pvs_pure (a : S19x10x256.Idx → EReal) (h : S19x10x256.ShapeCasts S190x256) (hr : S190x256.ReducesTo [1] S190)
    (h0 : 0 < S_.numel) (hc : S190.ShapeCasts S1x190)
    (cq : Fin 19) (mq : Fin 10) (q : Fin 190) (hq : q.val = cq.val * 10 + mq.val) :
    shapeCast S1x190 (Host.reduceAdd (F := Ideal) (φ := .f32) (shapeCast S190x256 a h) (constant (F := Ideal) S_ .f32 0x00000000#32) hr h0) hc
        (ix2 (0 : Fin 1) q)
      = 0 + ∑ k : Fin 256, a (ix3 cq mq k) := by
  refine (shapeCast_a_1a_apply _ hc 0 q).trans ?_
  simp only [Host.reduceAdd, Ideal.hostReduceAdd_def]
  rw [Ideal.hostReduceAdd_single hr (by decide)]
  refine congrArg₂ (fun u v : EReal => u + v) Ideal.ofBits_zero_f32 (Finset.sum_congr rfl fun k _ => ?_)
  exact (congrArg (shapeCast S190x256 a h) (funext fun ax => Fin.ext (by
    match ax with
    | ⟨0, _⟩ => rfl
    | ⟨1, _⟩ => rfl))).trans (flat_apply a h cq mq q hq k)

/-- The result [131072, 190] recast to [131072, 19, 10] at `(n, c, m)` is the result at `(n, q)`: both have row-major
    position `n·190 + c·10 + m`. -/
theorem tail_pure (Y : S131072x190.Idx → EReal) (h : S131072x190.ShapeCasts S131072x19x10)
    (n : Fin 131072) (cq : Fin 19) (mq : Fin 10) (q : Fin 190) (hq : q.val = cq.val * 10 + mq.val) :
    shapeCast S131072x19x10 Y h (ix3 n cq mq) = Y (ix2 n q) :=
  shapeCast_apply Y h _ _ (by
    rw [Shape.rowMajor_val_two, Shape.rowMajor_val_three]
    show n.val * 190 + q.val = (n.val * 19 + cq.val) * 10 + mq.val
    omega)

/-! ## The arrays the region finds, and the array the host leaves -/

variable (m : (ℓ : Loc nD τ sig) → Buf (Elt Ideal) ℓ)

/-- The transposed prototype means the region finds: entry `(k, q)` is the prototype array at `(c, m, k)`. -/
theorem pmT_at (c : Dev nD) (cq : Fin 19) (mq : Fin 10) (q : Fin 190) (hq : q.val = cq.val * 10 + mq.val) (k : Fin 256) :
    (V m c main_v7 : S256x190.Idx → EReal) (ix2 k q) = (m ((c : Thread nD τ).loc main_arg2) : S19x10x256.Idx → EReal) (ix3 cq mq k) := by
  have e : (V m c main_v7 : S256x190.Idx → EReal)
      = transpose S256x190 [1, 0] (shapeCast S190x256 (m ((c : Thread nD τ).loc main_arg2) : S19x10x256.Idx → EReal)
          shapeCasts_S19x10x256_S190x256) transposes_S190x256_S256x190_1_0 := by
    show StableHlo.after hostOps0 (fun b => m (c, b)) (Proc.devRef .tc main_v7) = _
    after_results
    rfl
  exact (congrFun e _).trans (pmT_pure _ _ _ cq mq q hq k)

/-- The transposed square roots of the clamped prototype variances the region finds. -/
theorem spvT_at (c : Dev nD) (cq : Fin 19) (mq : Fin 10) (q : Fin 190) (hq : q.val = cq.val * 10 + mq.val) (k : Fin 256) :
    (V m c main_v8 : S256x190.Idx → EReal) (ix2 k q) = Ideal.sqrt (max ((m ((c : Thread nD τ).loc main_arg3) : S19x10x256.Idx → EReal) (ix3 cq mq k)) 0) := by
  have e : (V m c main_v8 : S256x190.Idx → EReal)
      = transpose S256x190 [1, 0] (Host.sqrt (F := Ideal) (φ := .f32) (maximumf (F := Ideal) (φ := .f32)
          (shapeCast S190x256 (m ((c : Thread nD τ).loc main_arg3) : S19x10x256.Idx → EReal) shapeCasts_S19x10x256_S190x256)
          (broadcastInDim S190x256 ![] bcast_S_S190x256 (constant (F := Ideal) S_ .f32 0x00000000#32)))) transposes_S190x256_S256x190_1_0 := by
    show StableHlo.after hostOps0 (fun b => m (c, b)) (Proc.devRef .tc main_v8) = _
    after_results
    rfl
  exact (congrFun e _).trans (spvT_pure _ _ _ _ cq mq q hq k)

/-- The prototype variance sums the region finds: column `q` is `0 + Σ_k` of prototype `(c, m)`'s variances. -/
theorem pvs_at (c : Dev nD) (cq : Fin 19) (mq : Fin 10) (q : Fin 190) (hq : q.val = cq.val * 10 + mq.val) :
    (V m c main_v6 : S1x190.Idx → EReal) (ix2 (0 : Fin 1) q) = 0 + Finset.sum (M := EReal) (Finset.univ : Finset (Fin 256)) fun k => (m ((c : Thread nD τ).loc main_arg3) : S19x10x256.Idx → EReal) (ix3 cq mq k) := by
  have e : (V m c main_v6 : S1x190.Idx → EReal)
      = shapeCast S1x190 (Host.reduceAdd (F := Ideal) (φ := .f32)
          (shapeCast S190x256 (m ((c : Thread nD τ).loc main_arg3) : S19x10x256.Idx → EReal) shapeCasts_S19x10x256_S190x256)
          (constant (F := Ideal) S_ .f32 0x00000000#32) reducesTo_S190x256_S190_d1 h_S_) shapeCasts_S190_S1x190 := by
    show StableHlo.after hostOps0 (fun b => m (c, b)) (Proc.devRef .tc main_v6) = _
    after_results
    rfl
  exact (congrFun e _).trans (pvs_pure _ _ _ _ _ cq mq q hq)

/-- The array the host leaves: the region's result `A` with its column index `q` split into `(c, m)`. -/
theorem tail_at (c : Dev nD) (A : S131072x190.Idx → EReal) (hA : (dats m 0 c).arrAt 5 cfg0.N = A) (n : Fin 131072) (cq : Fin 19) (mq : Fin 10) (q : Fin 190) (hq : q.val = cq.val * 10 + mq.val) :
    (Pipeline.afterTail₀ cfgs (dats m) 0 (V0 m) [hostOps1] c main_v10 : S131072x19x10.Idx → EReal) (ix3 n cq mq) = A (ix2 n q) := by
  have e : (Pipeline.afterTail₀ cfgs (dats m) 0 (V0 m) [hostOps1] c main_v10 : S131072x19x10.Idx → EReal)
      = shapeCast S131072x19x10 A shapeCasts_S131072x190_S131072x19x10 := by
    unfold Pipeline.afterTail₀
    show StableHlo.after hostOps1 _ (Proc.devRef .tc main_v10) = _
    after_results
    have hY := (Pipeline.withArrays_arr spec0 launch0.win.arr_inj c (V0 m c) (fun w => (dats m 0 c).arrAt w (cfgs 0).N) 5).trans hA
    rw [← hY]
    rfl
  exact (congrFun e _).trans (tail_pure A _ n cq mq q hq)

end Cert.KernelIdeal.HostSide

end
-- ==== Proof.KernelRun.lean ====
/-
  The kernel's program, run: its result array is the head's similarity `G` of the four arguments.

  After the region the output array holds the entry formula on all rows (`final5`), of the embeddings, their variances, and
  the three arrays the host prepared: the prototype means flattened to 190 columns, the square roots of their clamped
  variances likewise, and the row of the variances' sums `0 + Σ pv`. The last host line reshapes the [131072, 190] output to
  [131072, 19, 10]: entry `(n, c, m)` is entry `(n, 10·c + m)`, and column `10·c + m` of the prepared arrays is prototype
  `(c, m)`. With non-negative variances the kernel's entry is the reference's (`ksim_eq_sim`).
-/
import proofs.«123118_j44478681317595_2_alg».proof.Proof.Blocks
import proofs.«123118_j44478681317595_2_alg».proof.Proof.HostSide

noncomputable section

namespace Cert.KernelIdeal.Hand

open Cert.KernelIdeal Cert.KernelIdeal.Gen Idealize.ShloMosaic Idealize.ShloMosaic.TcCoe Idealize.SL.Sem
open Idealize.ShloMosaic.ValueIdx Cert.ProtoHead
open Idealize.ShloMosaic.Pipeline (Dat)

variable (m : (ℓ : Loc nD τ sig) → Buf (Elt Ideal) ℓ) (ρ : Dev nD → PrngReg)

/-- THE RESULT ARRAY, as the lines after the region leave it, is `G` of the arguments, where the variances are
    non-negative. -/
theorem result_eq (c : Dev nD)
    (hxv : ∀ i, (0 : EReal) ≤ (m ((c : Thread nD τ).loc main_arg1) : S131072x256.Idx → EReal) i)
    (hpv : ∀ i, (0 : EReal) ≤ (m ((c : Thread nD τ).loc main_arg3) : S19x10x256.Idx → EReal) i) :
    (Pipeline.afterTail₀ cfgs (dats m) 0 (V0 m) [hostOps1] c main_v10 : S131072x19x10.Idx → EReal)
      = G (m ((c : Thread nD τ).loc main_arg0)) (m ((c : Thread nD τ).loc main_arg1))
          (m ((c : Thread nD τ).loc main_arg2)) (m ((c : Thread nD τ).loc main_arg3)) := by
  funext i
  obtain ⟨n, cq, mq, rfl⟩ : ∃ (n : Fin 131072) (cq : Fin 19) (mq : Fin 10), i = ix3 n cq mq := ⟨i 0, i 1, i 2, eq_ix3 i⟩
  have hq : cq.val * 10 + mq.val < 190 := by have := cq.isLt; have := mq.isLt; omega
  refine (HostSide.tail_at m c (flat m c) (final5 m c) n cq mq ⟨cq.val * 10 + mq.val, hq⟩ rfl).trans ?_
  show ksim (fun k => V m c main_arg0 (ix2 n k)) (fun k => V m c main_arg1 (ix2 n k))
      (fun k => V m c main_v7 (ix2 k ⟨cq.val * 10 + mq.val, hq⟩)) (fun k => V m c main_v8 (ix2 k ⟨cq.val * 10 + mq.val, hq⟩))
      (V m c main_v6 (ix2 (0 : Fin 1) ⟨cq.val * 10 + mq.val, hq⟩)) = _
  rw [V_main_arg0, V_main_arg1]
  refine (ksim_congr (fun k => rfl) (fun k => rfl) (fun k => HostSide.pmT_at m c cq mq ⟨cq.val * 10 + mq.val, hq⟩ rfl k)
    (fun k => HostSide.spvT_at m c cq mq ⟨cq.val * 10 + mq.val, hq⟩ rfl k)
    (HostSide.pvs_at m c cq mq ⟨cq.val * 10 + mq.val, hq⟩ rfl)).trans ?_
  exact ksim_eq_sim _ _ _ _ (fun k => hxv _) (fun k => hpv _)

/-- THE RUN, read: every weakly fair execution of the kernel's program ends with the result array at `G` of the
    arguments and the arguments unchanged. -/
theorem run
    (hnn : ∀ c : Dev nD, (∀ i, (0 : EReal) ≤ (m ((c : Thread nD τ).loc main_arg1) : S131072x256.Idx → EReal) i)
      ∧ ∀ i, (0 : EReal) ≤ (m ((c : Thread nD τ).loc main_arg3) : S19x10x256.Idx → EReal) i) :
    θ_run defs (onTc (τ := τ) (main (F := Ideal))) ⟨m, fun _ => 0, ρ⟩ (fun r => ∀ c : Dev nD,
      r.2.mem ((c.tc : Thread nD τ).loc main_v10)
        = G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v10 (Pipeline.mem_restRefs_of main_v10 (by decide) (by decide))).trans (result_eq m c (hnn c).1 (hnn c).2),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.lean ====
/-
  The certificate of the prototype similarity head: a Pallas kernel over a grid of 16 row blocks against its jnp reference,
  equal entry by entry on the extended reals where the variance inputs are non-negative.

  Both programs compute, for embedding row `n` (with per-coordinate variances) and prototype `(c, m)` (with variances),
      -(2 - 2·⟨x, pm⟩ + (1/256)·(Σ xv + Σ pv - 2·⟨√xv, √pv⟩)).
  The kernel takes the prototypes flattened to 190 columns and transposed on the host, clamps every variance at zero before
  its square root, and negates by subtracting from zero; the reference takes square roots directly. A square root of a
  negative number is not a number in the reference, so the claim is stated where both variance inputs are non-negative;
  there the clamp is the identity and the two entries are one expression (Proof/Spec.lean `ksim_eq_sim`). The matrix
  products into zero accumulators, the lane sum and the host sums are all plain sums over the 256 coordinates, whatever
  their order or tiling.

  The three frames are the generated ones (the reference's is its run with the result dropped). The ideal pass rewrote
  nothing, so `preserves` is trivial. For `algebraic`: Proof/Payload.lean reads the body's stored value at an entry,
  Proof/Blocks.lean shows the 16 written-back blocks are the blocks of one function of the arrays and tile the output,
  Proof/HostSide.lean reads the host lines before and after the region at an index, Proof/KernelRun.lean assembles the
  kernel's run, Proof/RefSide.lean reads the reference's stages at an index, Proof/NonNeg.lean takes the non-negativity
  out of the precondition.
-/
import proofs.«123118_j44478681317595_2_alg».proof.Defs
import proofs.«123118_j44478681317595_2_alg».proof.Proof.Gen.Kernel
import proofs.«123118_j44478681317595_2_alg».proof.Proof.Gen.Kernel.Skeleton
import proofs.«123118_j44478681317595_2_alg».proof.Proof.Gen.Kernel.Launch
import proofs.«123118_j44478681317595_2_alg».proof.Proof.Gen.Kernel.Points
import proofs.«123118_j44478681317595_2_alg».proof.Proof.Gen.Kernel.Frame
import proofs.«123118_j44478681317595_2_alg».proof.Proof.Gen.KernelIdeal
import proofs.«123118_j44478681317595_2_alg».proof.Proof.Gen.KernelIdeal.Skeleton
import proofs.«123118_j44478681317595_2_alg».proof.Proof.Gen.KernelIdeal.Launch
import proofs.«123118_j44478681317595_2_alg».proof.Proof.Gen.KernelIdeal.Points
import proofs.«123118_j44478681317595_2_alg».proof.Proof.Gen.KernelIdeal.Frame
import proofs.«123118_j44478681317595_2_alg».proof.Proof.Gen.ReferenceIdeal
import proofs.«123118_j44478681317595_2_alg».proof.Proof.Gen.Pre_finite_inputs
import proofs.«123118_j44478681317595_2_alg».proof.Proof.Gen.ReferenceIdeal.Run
import proofs.«123118_j44478681317595_2_alg».proof.Proof.Gen.ReferenceIdeal.Read
import proofs.«123118_j44478681317595_2_alg».proof.Proof.NonNeg
import proofs.«123118_j44478681317595_2_alg».proof.Proof.RefSide
import proofs.«123118_j44478681317595_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel's frame. -/
theorem frame_k : Cert.frame_Kernel := fun m ρ _ => Cert.Kernel.Gen.frame m ρ

/-- The idealized kernel's frame. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the head's similarity `G` of arguments that agree: the kernel's run
    (where the precondition's non-negative variances make its clamp the identity) and the reference's run, read
    entry by entry. -/
theorem algebraic : Cert.algebraic_KernelIdeal_ReferenceIdeal := by
  intro m ρ m' ρ' hpre hagree
  have hnn := fun c : Dev Cert.KernelIdeal.nD => Cert.ProtoHead.nonneg_of_pre _ _ _ _ (hpre c)
  refine ⟨fun c => Cert.ProtoHead.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ hnn, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v21_eq, Cert.ReferenceIdeal.Hand.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
